-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S_ : Shape := ⟨0, ![]⟩

class Facts : Prop where
  bcast_S_S128x3x224x224 : S_.BroadcastsInDim S128x3x224x224 (![] : Fin 0 → Fin S128x3x224x224.rank)
  reducesTo_S128x3x224x224_S_d0_1_2_3 : S128x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S1x768 : S_.BroadcastsInDim S1x768 (![] : Fin 0 → Fin S1x768.rank)
  reducesTo_S1x768_S_d0_1 : S1x768.ReducesTo [0, 1] S_
  bcast_S_S197x768 : S_.BroadcastsInDim S197x768 (![] : Fin 0 → Fin S197x768.rank)
  reducesTo_S197x768_S_d0_1 : S197x768.ReducesTo [0, 1] S_

variable [Facts]

def fn_part1 {F : FTy → Type} [FloatOps F] (main_arg4 : FVec F S197x768 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S197x768 .f32 := Host.absf main_arg4
  let main_cst_6 : FVec F S_ .f32 := constant S_ .f32 0x7F800000#32
  let main_v20 : FVec F S197x768 .f32 := broadcastInDim S197x768 ![] bcast_S_S197x768 main_cst_6
  let main_v21 : IVec S197x768 1 := cmpf .olt main_v19 main_v20
  let main_c_7 : IVec S_ 1 := constantI S_ 1 1#1
  let main_v22 : IVec S_ 1 := (fun x v => Host.reduce IntOp.andi x v reducesTo_S197x768_S_d0_1 h_S_) main_v21 main_c_7
  let main_v23 : IVec S_ 1 := andi main_v18 main_v22
  main_v23

def fn {F : FTy → Type} [FloatOps F] (main_arg0 : FVec F S128x3x224x224 .f32) (main_arg1 : FVec F S768x768 .f32) (main_arg2 : FVec F S768 .f32) (main_arg3 : FVec F S1x768 .f32) (main_arg4 : FVec F S197x768 .f32) : IVec S_ 1 :=
  let main_v0 : FVec F S128x3x224x224 .f32 := Host.absf main_arg0
  let main_cst : FVec F S_ .f32 := constant S_ .f32 0x7F800000#32
  let main_v1 : FVec F S128x3x224x224 .f32 := broadcastInDim S128x3x224x224 ![] bcast_S_S128x3x224x224 main_cst
  let main_v2 : IVec S128x3x224x224 1 := cmpf .olt main_v0 main_v1
  let main_c : IVec S_ 1 := constantI S_ 1 1#1
  let main_v3 : IVec S_ 1 := (fun x v => Host.reduce IntOp.andi x v reducesTo_S128x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg4 main_v13 main_v16
-- ==== Kernel.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S128x197x768 : Shape := ⟨3, ![128, 197, 768]⟩
abbrev S8x196x768 : Shape := ⟨3, ![8, 196, 768]⟩
abbrev S8x197x768 : Shape := ⟨3, ![8, 197, 768]⟩
abbrev S1568x768 : Shape := ⟨2, ![1568, 768]⟩
abbrev S1x1x768 : Shape := ⟨3, ![1, 1, 768]⟩
abbrev S8x1x768 : Shape := ⟨3, ![8, 1, 768]⟩
abbrev S196x768 : Shape := ⟨2, ![196, 768]⟩
abbrev S1x196x768 : Shape := ⟨3, ![1, 196, 768]⟩

abbrev nBuf : Space → Nat
  | .hbm => 11
  | .vmem => 8
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S197x768, .f32⟩
  | .hbm, ⟨5, _⟩ => ⟨S128x3x14x16x14x16, .f32⟩
  | .hbm, ⟨6, _⟩ => ⟨S128x14x14x3x16x16, .f32⟩
  | .hbm, ⟨7, _⟩ => ⟨S128x196x768, .f32⟩
  | .hbm, ⟨8, _⟩ => ⟨S768x768, .f32⟩
  | .hbm, ⟨9, _⟩ => ⟨S768x768, .bf16⟩
  | .hbm, ⟨10, _⟩ => ⟨S128x197x768, .f32⟩
  | .local _ .vmem, ⟨0, _⟩ => ⟨S8x196x768, .f32⟩
  | .local _ .vmem, ⟨1, _⟩ => ⟨S8x196x768, .f32⟩
  | .local _ .vmem, ⟨2, _⟩ => ⟨S768x768, .bf16⟩
  | .local _ .vmem, ⟨3, _⟩ => ⟨S768, .f32⟩
  | .local _ .vmem, ⟨4, _⟩ => ⟨S1x768, .f32⟩
  | .local _ .vmem, ⟨5, _⟩ => ⟨S197x768, .f32⟩
  | .local _ .vmem, ⟨6, _⟩ => ⟨S8x197x768, .f32⟩
  | .local _ .vmem, ⟨7, _⟩ => ⟨S8x197x768, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S197x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x197x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  transposes_S768x768_S768x768_1_0 : S768x768.Transposes [1, 0] S768x768
  bitsLt_bf16_f32 : FTy.bits .bf16 < FTy.bits .f32
  inb_S8x196x768_S8x196x768_0_0_0 : ∀ a, (![0, 0, 0] : Fin 3 → Nat) a + S8x196x768.size a ≤ S8x196x768.size a
  h_S8x196x768 : 0 < S8x196x768.numel
  shapeCasts_S8x196x768_S8x196x768 : S8x196x768.ShapeCasts S8x196x768
  shapeCasts_S8x196x768_S1568x768 : S8x196x768.ShapeCasts S1568x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1568x768 : S1x768.Broadcasts S1568x768
  shapeCasts_S1568x768_S8x196x768 : S1568x768.ShapeCasts S8x196x768
  inb_S1x768_S1x768_0_0 : ∀ a, (![0, 0] : Fin 2 → Nat) a + S1x768.size a ≤ S1x768.size a
  h_S1x768 : 0 < S1x768.numel
  shapeCasts_S1x768_S1x1x768 : S1x768.ShapeCasts S1x1x768
  shapeCasts_S1x1x768_S1x1x768 : S1x1x768.ShapeCasts S1x1x768
  broadcasts_S1x1x768_S8x1x768 : S1x1x768.Broadcasts S8x1x768
  inb_S197x768_S1x768_0_0 : ∀ a, (![0, 0] : Fin 2 → Nat) a + S1x768.size a ≤ S197x768.size a
  inb_S197x768_S196x768_1_0 : ∀ a, (![1, 0] : Fin 2 → Nat) a + S196x768.size a ≤ S197x768.size a
  h_S196x768 : 0 < S196x768.numel
  shapeCasts_S196x768_S1x196x768 : S196x768.ShapeCasts S1x196x768
  inb_S8x197x768_S8x1x768_0_0_0 : ∀ a, (![0, 0, 0] : Fin 3 → Nat) a + S8x1x768.size a ≤ S8x197x768.size a
  h_S8x1x768 : 0 < S8x1x768.numel
  broadcasts_S1x196x768_S8x196x768 : S1x196x768.Broadcasts S8x196x768
  inb_S8x197x768_S8x196x768_0_1_0 : ∀ a, (![0, 1, 0] : Fin 3 → Nat) a + S8x196x768.size a ≤ S8x197x768.size a
  dot_S1568x768_S768x768_S1568x768_1_0_0_1_n_n_wf : DotDims.WF S1568x768 S768x768 S1568x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x196x768.size a ≤ S128x196x768.size a
  hwx0_0 : ∀ i : grid0.Coords, EltTy.bits .f32 = 32 ∨ (Rect.block (s := S128x196x768) S8x196x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S197x768.size a ≤ S197x768.size a
  hwx0_4 : ∀ i : grid0.Coords, EltTy.bits .f32 = 32 ∨ (Rect.block (s := S197x768) S197x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x197x768.size a ≤ S128x197x768.size a
  hwx0_5 : ∀ i : grid0.Coords, EltTy.bits .f32 = 32 ∨ (Rect.block (s := S128x197x768) S8x197x768.size (cc0_transform_5 i) (hinb0_5 i)).WholeWords (EltTy.packing .f32)

variable [Facts₀]

def dot_S1568x768_S768x768_S1568x768_1_0_0_1_n_n : DotDims S1568x768 S768x768 S1568x768 where
  lhsContracting := [1]
  rhsContracting := [0]
  lhsNonContracting := [0]
  rhsNonContracting := [1]
  lhsBatch := []
  rhsBatch := []
  wf := dot_S1568x768_S768x768_S1568x768_1_0_0_1_n_n_wf

abbrev win0_0 : Pipeline.Window sig grid0 :=
  Pipeline.Window.ofSpec (Memref.whole main_v2) S8x196x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S197x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S8x197x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x3x224x224 : Shape := ⟨4, ![128, 3, 224, 224]⟩
abbrev S768x768 : Shape := ⟨2, ![768, 768]⟩
abbrev S768 : Shape := ⟨1, ![768]⟩
abbrev S1x768 : Shape := ⟨2, ![1, 768]⟩
abbrev S197x768 : Shape := ⟨2, ![197, 768]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S1x1x768 : Shape := ⟨3, ![1, 1, 768]⟩
abbrev S128x1x768 : Shape := ⟨3, ![128, 1, 768]⟩
abbrev S128x197x768 : Shape := ⟨3, ![128, 197, 768]⟩
abbrev S1x197x768 : Shape := ⟨3, ![1, 197, 768]⟩

abbrev nBuf : Space → Nat
  | .hbm => 18
  | .vmem => 0
  | .smem => 0
  | _ => 0

abbrev bufTy : (tb : Table) → Fin (tcTables nBuf tb) → BufTy
  | .hbm, ⟨0, _⟩ => ⟨S128x3x224x224, .f32⟩
  | .hbm, ⟨1, _⟩ => ⟨S768x768, .f32⟩
  | .hbm, ⟨2, _⟩ => ⟨S768, .f32⟩
  | .hbm, ⟨3, _⟩ => ⟨S1x768, .f32⟩
  | .hbm, ⟨4, _⟩ => ⟨S197x768, .f32⟩
  | .hbm, ⟨5, _⟩ => ⟨S128x3x14x16x14x16, .f32⟩
  | .hbm, ⟨6, _⟩ => ⟨S128x14x14x3x16x16, .f32⟩
  | .hbm, ⟨7, _⟩ => ⟨S128x196x768, .f32⟩
  | .hbm, ⟨8, _⟩ => ⟨S128x196x768, .f32⟩
  | .hbm, ⟨9, _⟩ => ⟨S1x1x768, .f32⟩
  | .hbm, ⟨10, _⟩ => ⟨S128x196x768, .f32⟩
  | .hbm, ⟨11, _⟩ => ⟨S128x196x768, .f32⟩
  | .hbm, ⟨12, _⟩ => ⟨S1x1x768, .f32⟩
  | .hbm, ⟨13, _⟩ => ⟨S128x1x768, .f32⟩
  | .hbm, ⟨14, _⟩ => ⟨S128x197x768, .f32⟩
  | .hbm, ⟨15, _⟩ => ⟨S1x197x768, .f32⟩
  | .hbm, ⟨16, _⟩ => ⟨S128x197x768, .f32⟩
  | .hbm, ⟨17, _⟩ => ⟨S128x197x768, .f32⟩
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  bcast_S768_S1x1x768_2 : S768.BroadcastsInDim S1x1x768 (![2] : Fin 1 → Fin S1x1x768.rank)
  bcast_S1x1x768_S128x196x768_0_1_2 : S1x1x768.BroadcastsInDim S128x196x768 (![0, 1, 2] : Fin 3 → Fin S128x196x768.rank)
  bcast_S1x768_S1x1x768_1_2 : S1x768.BroadcastsInDim S1x1x768 (![1, 2] : Fin 2 → Fin S1x1x768.rank)
  bcast_S1x1x768_S128x1x768_0_1_2 : S1x1x768.BroadcastsInDim S128x1x768 (![0, 1, 2] : Fin 3 → Fin S128x1x768.rank)
  concatenates_S128x1x768_S128x196x768_S128x197x768_d1 : Shape.Concatenates [S128x1x768, S128x196x768] S128x197x768 1
  bcast_S197x768_S1x197x768_1_2 : S197x768.BroadcastsInDim S1x197x768 (![1, 2] : Fin 2 → Fin S1x197x768.rank)
  bcast_S1x197x768_S128x197x768_0_1_2 : S1x197x768.BroadcastsInDim S128x197x768 (![0, 1, 2] : Fin 3 → Fin S128x197x768.rank)
  dot_S128x196x768_S768x768_S128x196x768_2_1_01_0_n_n_wf : DotDims.WF S128x196x768 S768x768 S128x196x768 [2] [1] [0, 1] [0] [] []

variable [Facts₀]

def dot_S128x196x768_S768x768_S128x196x768_2_1_01_0_n_n : DotDims S128x196x768 S768x768 S128x196x768 where
  lhsContracting := [2]
  rhsContracting := [1]
  lhsNonContracting := [0, 1]
  rhsNonContracting := [0]
  lhsBatch := []
  rhsBatch := []
  wf := dot_S128x196x768_S768x768_S128x196x768_2_1_01_0_n_n_wf

class Facts : Prop extends Facts₀ where

variable [Facts]
-- ==== Proof.Spec.lean ====
/-
  Patch embedding with a class token, as ONE function of its arrays.

  From a stack `P` of flattened patches (`B` images, 196 patches each, 768 numbers per patch), a weight matrix `W`
  (768 outputs × 768 inputs), a bias `b`, a class token `cls` (one row) and positional embeddings `pos`
  (197 rows), the embedded sequence of image `n` has 197 rows of 768 numbers:
    row 0           : cls[0, h] + pos[0, h]
    row s = p + 1   : (∑ₖ P[n, p, k] · W[h, k] + b[h]) + pos[s, h]
  on the extended reals. Nothing here needs the entries to be finite: both programs compute exactly this
  expression, with the same grouping of the two additions, and differ only in how they lay the work out.
-/
import Idealize.ShloMosaic.PureOps.Ideal
import Idealize.ShloMosaic.Lib.ValueIdx

noncomputable section

namespace Cert.PatchEmbed

open Idealize.ShloMosaic Idealize.ShloMosaic.ValueIdx

/-- Entry `(n, s, h)` of the embedded sequence: the class token's row for `s = 0`, else patch `s - 1` projected by
    row `h` of `W` plus the bias; the positional embedding of row `s` added in both cases. -/
def token {B : Nat} (P : (⟨3, ![B, 196, 768]⟩ : Shape).Idx → EReal) (W : (⟨2, ![768, 768]⟩ : Shape).Idx → EReal)
    (b : (⟨1, ![768]⟩ : Shape).Idx → EReal) (cls : (⟨2, ![1, 768]⟩ : Shape).Idx → EReal)
    (pos : (⟨2, ![197, 768]⟩ : Shape).Idx → EReal) (n : Fin B) (s : Fin 197) (h : Fin 768) : EReal :=
  if hs : s.val = 0 then cls (ix2 (0 : Fin 1) h) + pos (ix2 s h)
  else (∑ k : Fin 768, P (ix3 n (⟨s.val - 1, by have := s.isLt; omega⟩ : Fin 196) k) * W (ix2 h k) + b (ix1 h))
    + pos (ix2 s h)

/-- The whole embedded array, index by index. -/
def embed {B : Nat} (P : (⟨3, ![B, 196, 768]⟩ : Shape).Idx → EReal) (W : (⟨2, ![768, 768]⟩ : Shape).Idx → EReal)
    (b : (⟨1, ![768]⟩ : Shape).Idx → EReal) (cls : (⟨2, ![1, 768]⟩ : Shape).Idx → EReal)
    (pos : (⟨2, ![197, 768]⟩ : Shape).Idx → EReal) : (⟨3, ![B, 197, 768]⟩ : Shape).Idx → EReal :=
  fun i => token P W b cls pos (i 0) (i 1) (i 2)

variable {B : Nat} (P : (⟨3, ![B, 196, 768]⟩ : Shape).Idx → EReal) (W : (⟨2, ![768, 768]⟩ : Shape).Idx → EReal)
  (b : (⟨1, ![768]⟩ : Shape).Idx → EReal) (cls : (⟨2, ![1, 768]⟩ : Shape).Idx → EReal)
  (pos : (⟨2, ![197, 768]⟩ : Shape).Idx → EReal)

theorem embed_ix3 (n : Fin B) (s : Fin 197) (h : Fin 768) :
    embed P W b cls pos (ix3 n s h) = token P W b cls pos n s h := rfl

/-- Row 0 is the class token plus its positional embedding. -/
theorem token_first (n : Fin B) (s : Fin 197) (hs : s.val = 0) (h : Fin 768) :
    token P W b cls pos n s h = cls (ix2 (0 : Fin 1) h) + pos (ix2 s h) := by
  unfold token
  rw [dif_pos hs]

/-- Row `p + 1` is patch `p` projected, plus the bias, plus the positional embedding of that row. -/
theorem token_patch (n : Fin B) (s : Fin 197) (p : Fin 196) (hs : s.val = p.val + 1) (h : Fin 768) :
    token P W b cls pos n s h
      = (∑ k : Fin 768, P (ix3 n p k) * W (ix2 h k) + b (ix1 h)) + pos (ix2 s h) := by
  unfold token
  rw [dif_neg (by omega)]
  have e : (⟨s.val - 1, by have := s.isLt; omega⟩ : Fin 196) = p := Fin.ext (by show s.val - 1 = p.val; omega)
  rw [e]

end Cert.PatchEmbed

end
-- ==== Proof.RefSpec.lean ====
/-
  The reference computes the patch embedding (Spec.lean's `embed`), read one operation at a time.

  After the patches are cut out of the images (three layout operations, shared with the kernel's program and never
  opened here), the reference contracts each patch with the rows of `W` (a `dot_general` over the last axis of both
  operands), adds the bias broadcast along the last axis, joins the class token's row in front of the 196 projected
  rows, and adds the positional embeddings broadcast over the images. Read at an index `(n, s, h)`:
    the positional term is `pos[s, h]`;
    the joined array is `cls[0, h]` on row 0 and the projected row `s - 1` on the others;
    a projected entry is `∑ₖ P[n, p, k] · W[h, k] + b[h]`.
-/
import proofs.«103310_j32762010534327_2_alg».proof.Proof.Gen.ReferenceIdeal.Read
import proofs.«103310_j32762010534327_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.PatchEmbed
open Idealize.ShloMosaic Idealize.ShloMosaic.ValueIdx

variable (x0 : (⟨S128x3x224x224, .f32⟩ : BufTy).Contents (Elt Ideal)) (x1 : (⟨S768x768, .f32⟩ : BufTy).Contents (Elt Ideal))
  (x2 : (⟨S768, .f32⟩ : BufTy).Contents (Elt Ideal)) (x3 : (⟨S1x768, .f32⟩ : BufTy).Contents (Elt Ideal))
  (x4 : (⟨S197x768, .f32⟩ : BufTy).Contents (Elt Ideal))

/-- The positional embeddings, broadcast over the images, read row `s` of the table. -/
theorem pos_apply (n : Fin 128) (s : Fin 197) (h : Fin 768) :
    val_main_v11 (F := Ideal) x4 (ix3 n s h) = x4 (ix2 s h) := by
  rw [val_main_v11_apply, val_main_v10_apply]
  exact congrArg x4 (funext fun a => by match a with | ⟨0, _⟩ => rfl | ⟨1, _⟩ => rfl)

/-- The class token, broadcast over the images, reads its one row. -/
theorem cls_apply (n : Fin 128) (u : Fin 1) (h : Fin 768) :
    val_main_v8 (F := Ideal) x3 (ix3 n u h) = x3 (ix2 (0 : Fin 1) h) := by
  rw [val_main_v8_apply, val_main_v7_apply]
  exact congrArg x3 (funext fun a => by match a with | ⟨0, _⟩ => rfl | ⟨1, _⟩ => rfl)

/-- The bias, broadcast over images and patches, reads its entry `h`. -/
theorem bias_apply (n : Fin 128) (p : Fin 196) (h : Fin 768) :
    val_main_v5 (F := Ideal) x2 (ix3 n p h) = x2 (ix1 h) := by
  rw [val_main_v5_apply, val_main_v4_apply]
  exact congrArg x2 (funext fun a => by match a with | ⟨0, _⟩ => rfl)

/-- The contraction: patch `(n, p)` against row `h` of `W`. -/
theorem proj_apply (n : Fin 128) (p : Fin 196) (h : Fin 768) :
    val_main_v3 (F := Ideal) x0 x1 (ix3 n p h)
      = ∑ k : Fin 768, val_main_v2 (F := Ideal) x0 (ix3 n p k) * x1 (ix2 h k) := by
  rw [val_main_v3_apply]
  refine Finset.sum_congr rfl fun k _ => ?_
  have el : lidx_main_v3 (ix3 n p h) k = ix3 n p k :=
    funext fun a => by match a with | ⟨0, _⟩ => rfl | ⟨1, _⟩ => rfl | ⟨2, _⟩ => rfl
  have er : ridx_main_v3 (ix3 n p h) k = ix2 h k :=
    funext fun a => by match a with | ⟨0, _⟩ => rfl | ⟨1, _⟩ => rfl
  rw [el, er]

/-- A projected entry: the contraction plus the bias. -/
theorem tokens_apply (n : Fin 128) (p : Fin 196) (h : Fin 768) :
    val_main_v6 (F := Ideal) x0 x1 x2 (ix3 n p h)
      = ∑ k : Fin 768, val_main_v2 (F := Ideal) x0 (ix3 n p k) * x1 (ix2 h k) + x2 (ix1 h) := by
  rw [val_main_v6_apply, proj_apply, bias_apply]
  rfl

/-- Row 0 of the joined array is the class token's row. -/
theorem joined_first (n : Fin 128) (s : Fin 197) (hs : s.val = 0) (h : Fin 768) :
    val_main_v9 (F := Ideal) x0 x1 x2 x3 (ix3 n s h) = x3 (ix2 (0 : Fin 1) h) := by
  unfold val_main_v9
  refine (concatenate_pair_apply_left (t := S128x197x768) (s₁ := S128x1x768) (s₂ := S128x196x768) (1 : Fin 3) _ _
    concatenates_S128x1x768_S128x196x768_S128x197x768_d1
    (ix3 n s h) rfl (ix3 n (0 : Fin 1) h) (fun b => ?_)).trans (cls_apply x3 n 0 h)
  match b with
  | ⟨0, _⟩ => rfl
  | ⟨1, _⟩ => show (0 : ℕ) = s.val; omega
  | ⟨2, _⟩ => rfl

/-- Row `p + 1` of the joined array is projected row `p`. -/
theorem joined_patch (n : Fin 128) (s : Fin 197) (p : Fin 196) (hs : s.val = p.val + 1) (h : Fin 768) :
    val_main_v9 (F := Ideal) x0 x1 x2 x3 (ix3 n s h) = val_main_v6 (F := Ideal) x0 x1 x2 (ix3 n p h) := by
  unfold val_main_v9
  refine concatenate_pair_apply_right (t := S128x197x768) (s₁ := S128x1x768) (s₂ := S128x196x768) (1 : Fin 3) _ _
    concatenates_S128x1x768_S128x196x768_S128x197x768_d1
    (ix3 n s h) rfl rfl (ix3 n p h) (fun b hb => ?_) ?_
  · match b with
    | ⟨0, _⟩ => rfl
    | ⟨1, _⟩ => exact absurd rfl hb
    | ⟨2, _⟩ => rfl
  · show p.val + 1 = s.val
    omega

/-- The reference's result is the patch embedding of the patches it cut out, index by index. -/
theorem result_eq :
    val_main_v12 (F := Ideal) x0 x1 x2 x3 x4 = embed (val_main_v2 (F := Ideal) x0) x1 x2 x3 x4 := by
  funext i
  obtain ⟨n, s, h, rfl⟩ : ∃ (n : Fin 128) (s : Fin 197) (h : Fin 768), i = ix3 n s h := ⟨i 0, i 1, i 2, eq_ix3 i⟩
  rw [val_main_v12_apply, pos_apply, embed_ix3]
  by_cases hs : s.val = 0
  · rw [joined_first x0 x1 x2 x3 n s hs h, token_first _ _ _ _ _ n s hs h]
    rfl
  · obtain ⟨p, hp⟩ : ∃ p : Fin 196, s.val = p.val + 1 :=
      ⟨⟨s.val - 1, by have := s.isLt; omega⟩, by show s.val = s.val - 1 + 1; omega⟩
    rw [joined_patch x0 x1 x2 x3 n s p hp h, tokens_apply, token_patch _ _ _ _ _ n s p hp h]
    rfl

end Cert.ReferenceIdeal.RefValue

end
-- ==== Proof.Payload.lean ====
/-
  The kernel body's two stored values, read at an index, on the extended reals.

  For one tile of 8 images the body holds the tile's patches `v0` [8, 196, 768], the transposed weights `v4`
  [768 inputs, 768 outputs], the bias `v7`, the class token's row `v12`, and two slices of the positional table:
  its row 0 (`v16`) and its rows 1..196 (`v18`).
    First store (row 0 of every image of the tile): `v12[0, h] + v16[0, h]`.
    Second store (rows 1..196): the tile's 8·196 patches, flattened to the rows of one matrix, multiplied by the
      weights into a zero accumulator, plus the bias broadcast over the rows, unflattened, plus `v18` broadcast
      over the images: `(∑ₖ v0[b, p, k] · v4[k, h] + v7[h]) + v18[p, h]`.
  Rounding the patches to bf16 before the product is the identity on the extended reals.
-/
import proofs.«103310_j32762010534327_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- One row [1, 768] viewed [1, 1, 768] and repeated over the 8 images of a tile reads the row. -/
theorem row_over_tile (v : Vec Ideal S1x768 .f32) (bb : Fin 8) (u : Fin 1) (h : Fin 768) :
    broadcastTo S8x1x768 (shapeCast S1x1x768 v shapeCasts_S1x768_S1x1x768) broadcasts_S1x1x768_S8x1x768 (ix3 bb u h)
      = v (ix2 (0 : Fin 1) h) := by
  refine (broadcastTo_apply _ broadcasts_S1x1x768_S8x1x768 (ix3 bb u h) (ix3 (0 : Fin 1) (0 : Fin 1) h) fun a => ?_).trans
    (shapeCast_ab_1ab_apply v shapeCasts_S1x768_S1x1x768 0 0 h)
  match a with
  | ⟨0, _⟩ => rfl
  | ⟨1, _⟩ => rfl
  | ⟨2, _⟩ => rfl

/-- The first store: the class token's row plus row 0 of the positional table, for every image of the tile. -/
theorem pay1_apply (v12 v16 : Vec Ideal S1x768 .f32) (bb : Fin 8) (u : Fin 1) (h : Fin 768) :
    k0_pay1 (F := Ideal) v12 v16 (ix3 bb u h) = v12 (ix2 (0 : Fin 1) h) + v16 (ix2 (0 : Fin 1) h) := by
  unfold k0_pay1
  rw [shapeCast_self]
  exact congrArg₂ (· + ·) (row_over_tile v12 bb u h) (row_over_tile v16 bb u h)

/-- In the product of a [1568, 768] matrix with a [768, 768] one, the left operand is read on the output's row, -/
theorem lhs_row (j : S1568x768.Idx) (q : dot_S1568x768_S768x768_S1568x768_1_0_0_1_n_n.contr.Idx) :
    (dot_S1568x768_S768x768_S1568x768_1_0_0_1_n_n.lhsIdx j q 0).val = (j 0).val := by
  unfold DotDims.lhsIdx
  rw [dif_neg (show ¬(0 : Fin S1568x768.rank) ∈ dot_S1568x768_S768x768_S1568x768_1_0_0_1_n_n.lhsBatch by decide),
    dif_pos (show (0 : Fin S1568x768.rank) ∈ dot_S1568x768_S768x768_S1568x768_1_0_0_1_n_n.lhsNonContracting by decide)]
  rfl
/-- and at the contraction index on its columns; -/
theorem lhs_col (j : S1568x768.Idx) (q : dot_S1568x768_S768x768_S1568x768_1_0_0_1_n_n.contr.Idx) :
    (dot_S1568x768_S768x768_S1568x768_1_0_0_1_n_n.lhsIdx j q 1).val = (q ⟨0, by decide⟩).val :=
  dot_S1568x768_S768x768_S1568x768_1_0_0_1_n_n.lhsIdx_val_of_single rfl j q
/-- the right operand at the contraction index on its rows, -/
theorem rhs_row (j : S1568x768.Idx) (q : dot_S1568x768_S768x768_S1568x768_1_0_0_1_n_n.contr.Idx) :
    (dot_S1568x768_S768x768_S1568x768_1_0_0_1_n_n.rhsIdx j q 0).val = (q ⟨0, by decide⟩).val :=
  dot_S1568x768_S768x768_S1568x768_1_0_0_1_n_n.rhsIdx_val_of_single rfl j q
/-- and on the output's column. -/
theorem rhs_col (j : S1568x768.Idx) (q : dot_S1568x768_S768x768_S1568x768_1_0_0_1_n_n.contr.Idx) :
    (dot_S1568x768_S768x768_S1568x768_1_0_0_1_n_n.rhsIdx j q 1).val = (j 1).val := by
  unfold DotDims.rhsIdx
  rw [dif_neg (show ¬(1 : Fin S768x768.rank) ∈ dot_S1568x768_S768x768_S1568x768_1_0_0_1_n_n.rhsBatch by decide),
    dif_pos (show (1 : Fin S768x768.rank) ∈ dot_S1568x768_S768x768_S1568x768_1_0_0_1_n_n.rhsNonContracting by decide)]
  rfl

/-- The product of the flattened tile with the weights, at row `r = 196·b + p`: the contraction over the patch's
    768 numbers. -/
theorem matmul_row (v0 : Vec Ideal S8x196x768 .f32) (v4 : Vec Ideal S768x768 .bf16) (bb : Fin 8) (p : Fin 196)
    (r : Fin 1568) (hr : r.val = bb.val * 196 + p.val) (h : Fin 768) :
    matmul (F := Ideal) dot_S1568x768_S768x768_S1568x768_1_0_0_1_n_n none
        (shapeCast S1568x768 (truncf .bf16 (shapeCast S8x196x768 v0 shapeCasts_S8x196x768_S8x196x768 : FVec Ideal S8x196x768 .f32)
          bitsLt_bf16_f32 : FVec Ideal S8x196x768 .bf16) shapeCasts_S8x196x768_S1568x768 : FVec Ideal S1568x768 .bf16)
        (shapeCast S768x768 v4 shapeCasts_S768x768_S768x768 : FVec Ideal S768x768 .bf16)
        (constant S1568x768 .f32 0x00000000#32) (ix2 r h)
      = ∑ k : Fin 768, v0 (ix3 bb p k) * v4 (ix2 k h) := by
  rw [shapeCast_self, shapeCast_self]
  refine (Ideal.matmul_constant_zero_apply (φ₁ := .bf16) (φ₂ := .bf16) dot_S1568x768_S768x768_S1568x768_1_0_0_1_n_n none
    (shapeCast S1568x768 (truncf .bf16 v0 bitsLt_bf16_f32 : FVec Ideal S8x196x768 .bf16) shapeCasts_S8x196x768_S1568x768)
    v4 (ix2 r h)).trans ?_
  rw [← Equiv.sum_comp (contrEquiv1 dot_S1568x768_S768x768_S1568x768_1_0_0_1_n_n 768 rfl rfl).symm]
  refine Finset.sum_congr rfl fun k _ => ?_
  have hk := contrEquiv1_symm_val dot_S1568x768_S768x768_S1568x768_1_0_0_1_n_n 768 rfl rfl k
  have el : dot_S1568x768_S768x768_S1568x768_1_0_0_1_n_n.lhsIdx (ix2 r h) ((contrEquiv1 dot_S1568x768_S768x768_S1568x768_1_0_0_1_n_n 768 rfl rfl).symm k) = ix2 r k :=
    funext fun a => Fin.ext (by
      match a with
      | ⟨0, _⟩ => exact lhs_row _ _
      | ⟨1, _⟩ => exact (lhs_col _ _).trans hk)
  have er : dot_S1568x768_S768x768_S1568x768_1_0_0_1_n_n.rhsIdx (ix2 r h) ((contrEquiv1 dot_S1568x768_S768x768_S1568x768_1_0_0_1_n_n 768 rfl rfl).symm k) = ix2 k h :=
    funext fun a => Fin.ext (by
      match a with
      | ⟨0, _⟩ => exact (rhs_row _ _).trans hk
      | ⟨1, _⟩ => exact rhs_col _ _)
  rw [el, er]
  refine congrArg (· * v4 (ix2 k h)) ?_
  show shapeCast S1568x768 v0 shapeCasts_S8x196x768_S1568x768 (ix2 r k) = v0 (ix3 bb p k)
  refine shapeCast_apply v0 shapeCasts_S8x196x768_S1568x768 (ix2 r k) (ix3 bb p k) ?_
  rw [Shape.rowMajor_val_three, Shape.rowMajor_val_two]
  show (bb.val * 196 + p.val) * 768 + k.val = r.val * 768 + k.val
  rw [hr]

/-- The bias [768] viewed [1, 768] and repeated over the rows of the flattened tile reads its entry. -/
theorem bias_over_rows (v7 : Vec Ideal S768 .f32) (r : Fin 1568) (h : Fin 768) :
    broadcastTo S1568x768 (shapeCast S1x768 v7 shapeCasts_S768_S1x768) broadcasts_S1x768_S1568x768 (ix2 r h)
      = v7 (ix1 h) :=
  (broadcastTo_1b_ab_apply _ broadcasts_S1x768_S1568x768 r h).trans (shapeCast_a_1a_apply v7 shapeCasts_S768_S1x768 0 h)

/-- Rows 1..196 of the positional table, viewed [1, 196, 768] and repeated over the 8 images, read row `p`. -/
theorem pos_over_tile (v18 : Vec Ideal S196x768 .f32) (bb : Fin 8) (p : Fin 196) (h : Fin 768) :
    broadcastTo S8x196x768 (shapeCast S1x196x768 v18 shapeCasts_S196x768_S1x196x768) broadcasts_S1x196x768_S8x196x768
        (ix3 bb p h) = v18 (ix2 p h) := by
  refine (broadcastTo_apply _ broadcasts_S1x196x768_S8x196x768 (ix3 bb p h) (ix3 (0 : Fin 1) p h) fun a => ?_).trans
    (shapeCast_ab_1ab_apply v18 shapeCasts_S196x768_S1x196x768 0 p h)
  match a with
  | ⟨0, _⟩ => rfl
  | ⟨1, _⟩ => rfl
  | ⟨2, _⟩ => rfl

/-- The second store: patch `(b, p)` of the tile projected, plus the bias, plus row `p` of the positional slice. -/
theorem pay2_apply (v0 : Vec Ideal S8x196x768 .f32) (v4 : Vec Ideal S768x768 .bf16) (v7 : Vec Ideal S768 .f32)
    (v18 : Vec Ideal S196x768 .f32) (bb : Fin 8) (p : Fin 196) (h : Fin 768) :
    k0_pay2 (F := Ideal) v0 v4 v7 v18 (ix3 bb p h)
      = (∑ k : Fin 768, v0 (ix3 bb p k) * v4 (ix2 k h) + v7 (ix1 h)) + v18 (ix2 p h) := by
  unfold k0_pay2
  refine congrArg₂ (· + ·) ?_ (pos_over_tile v18 bb p h)
  have hr : bb.val * 196 + p.val < 1568 := by have := bb.isLt; have := p.isLt; omega
  refine (shapeCast_apply _ shapeCasts_S1568x768_S8x196x768 (ix3 bb p h) (ix2 (⟨bb.val * 196 + p.val, hr⟩ : Fin 1568) h) ?_).trans ?_
  · rw [Shape.rowMajor_val_three, Shape.rowMajor_val_two]
    rfl
  · exact congrArg₂ (· + ·) (matmul_row v0 v4 bb p ⟨bb.val * 196 + p.val, hr⟩ rfl h) (bias_over_rows v7 _ h)

end Cert.KernelIdeal.Body

end
-- ==== Proof.Block.lean ====
/-
  What one run of the body leaves in the output tile [8, 197, 768], read at an index.

  The body makes two stores into the tile: rows 1..196 of every image (the projected patches plus positions), and
  row 0 of every image (the class token plus position 0). Together they cover the tile, and they do not overlap,
  so the tile's entry `(b, s, h)` is the first store's value at `(b, 0, h)` when `s = 0` and the second store's value
  at `(b, s - 1, h)` otherwise. With the stored values read at an index (Payload.lean) this is the patch embedding of
  the tile's 8 images (Spec.lean's `token` at batch size 8), the weights read transposed: the body's weight block
  is indexed (input, output) where the specification's `W` is indexed (output, input).
-/
import proofs.«103310_j32762010534327_2_alg».proof.Proof.Gen.KernelIdeal.Frame
import proofs.«103310_j32762010534327_2_alg».proof.Proof.Payload
import proofs.«103310_j32762010534327_2_alg».proof.Proof.Spec
import Idealize.ShloMosaic.Lib.Pipeline.Value
import Idealize.ShloMosaic.Lib.Tactic

noncomputable section

namespace Cert.KernelIdeal.Body

open Cert.KernelIdeal Cert.KernelIdeal.Gen Cert.PatchEmbed
open Idealize.ShloMosaic Idealize.ShloMosaic.TcCoe Idealize.ShloMosaic.ValueIdx Idealize.SL.Sem

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- A weight block indexed (input, output), read as the specification's (output, input). -/
abbrev transposed (w : (⟨2, ![768, 768]⟩ : Shape).Idx → EReal) : (⟨2, ![768, 768]⟩ : Shape).Idx → EReal :=
  fun j => w (ix2 (j 1) (j 0))

/-- The output tile after the body, at `(b, s, h)`: the patch embedding of the tile's images. -/
theorem out_tile (c : Dev nD) (i : grid0.Coords) (arg1 : Memref sig .tc .vmem S8x196x768 .f32) (harg1 : arg1.IsWhole)
    (arg2 : Memref sig .tc .vmem S768x768 .bf16) (harg2 : arg2.IsWhole) (arg3 : Memref sig .tc .vmem S768 .f32) (harg3 : arg3.IsWhole)
    (arg4 : Memref sig .tc .vmem S1x768 .f32) (harg4 : arg4.IsWhole) (arg5 : Memref sig .tc .vmem S197x768 .f32) (harg5 : arg5.IsWhole)
    (arg6 : Memref sig .tc .vmem S8x197x768 .f32) (harg6 : arg6.IsWhole)
    (x0 : Vec Ideal S8x196x768 .f32) (x1 : Vec Ideal S768x768 .bf16) (x2 : Vec Ideal S768 .f32) (x3 : Vec Ideal S1x768 .f32)
    (x4 : Vec Ideal S197x768 .f32) (bb : Fin 8) (s : Fin 197) (h : Fin 768) :
    out0_A_5 (F := Ideal) c i arg1 harg1 arg2 harg2 arg3 harg3 arg4 harg4 arg5 harg5 arg6 harg6 x0 x1 x2 x3 x4 (ix3 bb s h)
      = token (B := 8) x0 (transposed x1) x2 x3 x4 bb s h := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S8x196x768) zeros3, View.ld_unit_zero (S := S768x768) zeros2, View.ld_unit_zero (S := S768) zeros1,
    View.ld_unit_zero (S := S1x768) zeros2]
  by_cases hs : s.val = 0
  · -- row 0: outside the second store's rows, inside the first store's
    refine (View.canon_cons_of_not_mem _ _ (fun hm => ?_)).trans ?_
    · have hm' : (ix3 bb s h : S8x197x768.Idx)
          ∈ (Rect.unit (s := S8x197x768) ![0, 1, 0] S8x196x768.size inb_S8x197x768_S8x196x768_0_1_0).set := hm
      have h1 : 1 ≤ s.val := (Rect.mem_set_unit.mp hm' (1 : Fin 3)).1
      omega
    · have e : (ix3 bb s h : S8x197x768.Idx)
          = (Rect.unit (s := S8x197x768) ![0, 0, 0] S8x1x768.size inb_S8x197x768_S8x1x768_0_0_0).emb (ix3 bb (0 : Fin 1) h) :=
        funext fun a => Fin.ext (by
          match a with
          | ⟨0, _⟩ => show bb.val = 0 + 1 * bb.val; omega
          | ⟨1, _⟩ => show s.val = 0 + 1 * 0; omega
          | ⟨2, _⟩ => show h.val = 0 + 1 * h.val; omega)
      rw [e]
      refine (View.canon_cons_emb _ _ _ _).trans ?_
      rw [pay1_apply, token_first _ _ _ _ _ bb s hs h]
      refine congrArg (x3 (ix2 (0 : Fin 1) h) + ·) (congrArg x4 (funext fun a => Fin.ext ?_))
      match a with
      | ⟨0, _⟩ => show 0 + 1 * 0 = s.val; omega
      | ⟨1, _⟩ => show 0 + 1 * h.val = h.val; omega
  · -- row p + 1: inside the second store's rows
    obtain ⟨p, hp⟩ : ∃ p : Fin 196, s.val = p.val + 1 :=
      ⟨⟨s.val - 1, by have := s.isLt; omega⟩, by show s.val = s.val - 1 + 1; omega⟩
    have e : (ix3 bb s h : S8x197x768.Idx)
        = (Rect.unit (s := S8x197x768) ![0, 1, 0] S8x196x768.size inb_S8x197x768_S8x196x768_0_1_0).emb (ix3 bb p h) :=
      funext fun a => Fin.ext (by
        match a with
        | ⟨0, _⟩ => show bb.val = 0 + 1 * bb.val; omega
        | ⟨1, _⟩ => show s.val = 1 + 1 * p.val; omega
        | ⟨2, _⟩ => show h.val = 0 + 1 * h.val; omega)
    rw [e]
    refine (View.canon_cons_emb _ _ _ _).trans ?_
    rw [pay2_apply, token_patch _ _ _ _ _ bb s p hp h]
    refine congrArg₂ (· + ·) rfl (congrArg x4 (funext fun a => Fin.ext ?_))
    match a with
    | ⟨0, _⟩ => show 1 + 1 * p.val = s.val; omega
    | ⟨1, _⟩ => show 0 + 1 * h.val = h.val; omega

end Cert.KernelIdeal.Body

end
-- ==== Proof.Whole.lean ====
/-
  The kernel's result array is the patch embedding of the patches its program cuts out of the images.

  The program first cuts the images into patches (three layout operations) and transposes the weight matrix; the
  grid then runs over 16 tiles of 8 images. At tile `t` the body sees images `8t .. 8t+7` of the patches, the whole
  transposed weights, bias, class token and positional table, and leaves in its output tile the patch embedding of
  those 8 images (Block.lean). Image `b` of tile `t` is image `8t + b` of the array, the tile's other two coordinates
  are the array's, and the weights are read back through the transposition, so what tile `t` writes back is the
  restriction to rows `8t .. 8t+7` of ONE function of the argument arrays: the patch embedding (Spec.lean). The 16
  tiles cover the 128 images (image `n` lies in tile `n / 8`), so the array ends at that function.
-/
import proofs.«103310_j32762010534327_2_alg».proof.Proof.Gen.KernelIdeal.Value
import proofs.«103310_j32762010534327_2_alg».proof.Proof.Block
import Idealize.ShloMosaic.Lib.Pipeline.Value
import Idealize.ShloMosaic.Lib.StableHlo.Run
import Idealize.ShloMosaic.Lib.ValueLayout

noncomputable section

namespace Cert.PatchEmbed

open Idealize.ShloMosaic Idealize.ShloMosaic.ValueIdx

/-- An entry of the embedding depends only on its image's patches, row `h` of the weights, entry `h` of the bias and
    of the class token, and entry `(s, h)` of the positional table. -/
theorem token_congr {B B' : Nat} (P : (⟨3, ![B, 196, 768]⟩ : Shape).Idx → EReal) (P' : (⟨3, ![B', 196, 768]⟩ : Shape).Idx → EReal)
    (W W' : (⟨2, ![768, 768]⟩ : Shape).Idx → EReal) (b b' : (⟨1, ![768]⟩ : Shape).Idx → EReal)
    (cls cls' : (⟨2, ![1, 768]⟩ : Shape).Idx → EReal) (pos pos' : (⟨2, ![197, 768]⟩ : Shape).Idx → EReal)
    (n : Fin B) (n' : Fin B') (s : Fin 197) (h : Fin 768)
    (hP : ∀ (p : Fin 196) (k : Fin 768), P (ix3 n p k) = P' (ix3 n' p k)) (hW : ∀ k : Fin 768, W (ix2 h k) = W' (ix2 h k))
    (hb : b (ix1 h) = b' (ix1 h)) (hc : cls (ix2 (0 : Fin 1) h) = cls' (ix2 (0 : Fin 1) h))
    (hpos : pos (ix2 s h) = pos' (ix2 s h)) :
    token P W b cls pos n s h = token P' W' b' cls' pos' n' s h := by
  unfold token
  split
  · rw [hc, hpos]
  · rw [hb, hpos]
    refine congrArg (· + pos' (ix2 s h)) (congrArg (· + b' (ix1 h)) (Finset.sum_congr rfl fun k _ => ?_))
    rw [hP, hW]

end Cert.PatchEmbed

namespace Cert.KernelIdeal.Whole

open Cert.KernelIdeal Cert.KernelIdeal.Gen Cert.KernelIdeal.Body Cert.PatchEmbed
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The images cut into patches: [128, 3, 224, 224] split into 14 × 14 squares of 16 × 16, the square's position
    brought in front of the channel, each square flattened to 768 numbers. The reference applies the same three
    operations; they are carried as one function and never opened. -/
def patches (x : Vec Ideal S128x3x224x224 .f32) : Vec Ideal S128x196x768 .f32 :=
  shapeCast S128x196x768
    (transpose S128x14x14x3x16x16 [0, 2, 4, 1, 3, 5]
      (shapeCast S128x3x14x16x14x16 x shapeCasts_S128x3x224x224_S128x3x14x16x14x16)
      transposes_S128x3x14x16x14x16_S128x14x14x3x16x16_0_2_4_1_3_5)
    shapeCasts_S128x14x14x3x16x16_S128x196x768

/-- When the grid starts, the first window's array holds the patches of the images as launched. -/
theorem entry_patches (c : Dev nD) :
    (V m c main_v2 : S128x196x768.Idx → EReal) = patches (m ((c : Thread nD τ).loc main_arg0)) := by
  dsimp only [V, hostOps0]
  after_results
  rfl

/-- The second window's array holds the weight matrix transposed (its rounding to bf16 is the identity here). -/
theorem entry_weights (c : Dev nD) :
    (V m c main_v4 : S768x768.Idx → EReal)
      = transpose S768x768 [1, 0] (m ((c : Thread nD τ).loc main_arg1)) transposes_S768x768_S768x768_1_0 := by
  dsimp only [V, hostOps0]
  after_results
  rfl

/-- The printed index maps over the 16 grid points: the patches' and the output's windows move with the point
    along the images and stay at 0 elsewhere; the other windows stay at block 0. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Tile `t` of the patches: image `b` of the tile is image `8t + b` of the array. -/
theorem read_patches (c : Dev nD) (t : Fin cfg0.N) (bb : Fin 8) (p : Fin 196) (k : Fin 768) (n : Fin 128)
    (hn : n.val = 8 * t.val + bb.val) :
    iblk m c 0 t (ix3 bb p k) = patches (m ((c : Thread nD τ).loc main_arg0)) (ix3 n p k) := by
  show V m c main_v2 (((cfg0.win 0).blk t).view.emb (ix3 bb p k)) = _
  rw [← entry_patches m c]
  obtain ⟨e0, e1, e2, -⟩ := index_facts t
  refine congrArg (V m c main_v2) (funext fun a => Fin.ext ?_)
  match a with
  | ⟨0, _⟩ => show win0_0.index t (0 : Fin 3) * 8 + 1 * bb.val = n.val; omega
  | ⟨1, _⟩ => show win0_0.index t (1 : Fin 3) * 196 + 1 * p.val = p.val; omega
  | ⟨2, _⟩ => show win0_0.index t (2 : Fin 3) * 768 + 1 * k.val = k.val; omega

/-- The weights' one block, read at (input `k`, output `h`), is entry (`h`, `k`) of the weight matrix. -/
theorem read_weights (c : Dev nD) (t : Fin cfg0.N) (k h : Fin 768) :
    iblk m c 1 t (ix2 k h) = (m ((c : Thread nD τ).loc main_arg1)) (ix2 h k) := by
  show V m c main_v4 (((cfg0.win 1).blk t).view.emb (ix2 k h)) = _
  obtain ⟨-, -, -, e0, e1, -⟩ := index_facts t
  have e : ((cfg0.win 1).blk t).view.emb (ix2 k h) = (ix2 k h : S768x768.Idx) := funext fun a => Fin.ext (by
    match a with
    | ⟨0, _⟩ => show win0_1.index t (0 : Fin 2) * 768 + 1 * k.val = k.val; omega
    | ⟨1, _⟩ => show win0_1.index t (1 : Fin 2) * 768 + 1 * h.val = h.val; omega)
  rw [e]
  show (V m c main_v4 : S768x768.Idx → EReal) (ix2 k h) = _
  rw [entry_weights m c]
  exact transpose_ix2_apply _ transposes_S768x768_S768x768_1_0 k h

/-- The bias's one block is the bias as launched. -/
theorem read_bias (c : Dev nD) (t : Fin cfg0.N) (h : Fin 768) :
    iblk m c 2 t (ix1 h) = (m ((c : Thread nD τ).loc main_arg2)) (ix1 h) := by
  show V m c main_arg2 (((cfg0.win 2).blk t).view.emb (ix1 h)) = _
  obtain ⟨-, -, -, -, -, e0, -⟩ := index_facts t
  rw [V_main_arg2 m c]
  refine congrArg (m ((c : Thread nD τ).loc main_arg2)) (funext fun a => Fin.ext ?_)
  match a with
  | ⟨0, _⟩ => show win0_2.index t (0 : Fin 1) * 768 + 1 * h.val = h.val; omega

/-- The class token's one block is the class token as launched. -/
theorem read_cls (c : Dev nD) (t : Fin cfg0.N) (u : Fin 1) (h : Fin 768) :
    iblk m c 3 t (ix2 u h) = (m ((c : Thread nD τ).loc main_arg3)) (ix2 u h) := by
  show V m c main_arg3 (((cfg0.win 3).blk t).view.emb (ix2 u h)) = _
  obtain ⟨-, -, -, -, -, -, e0, e1, -⟩ := index_facts t
  rw [V_main_arg3 m c]
  refine congrArg (m ((c : Thread nD τ).loc main_arg3)) (funext fun a => Fin.ext ?_)
  match a with
  | ⟨0, _⟩ => show win0_3.index t (0 : Fin 2) * 1 + 1 * u.val = u.val; omega
  | ⟨1, _⟩ => show win0_3.index t (1 : Fin 2) * 768 + 1 * h.val = h.val; omega

/-- The positional table's one block is the table as launched. -/
theorem read_pos (c : Dev nD) (t : Fin cfg0.N) (s : Fin 197) (h : Fin 768) :
    iblk m c 4 t (ix2 s h) = (m ((c : Thread nD τ).loc main_arg4)) (ix2 s h) := by
  show V m c main_arg4 (((cfg0.win 4).blk t).view.emb (ix2 s h)) = _
  obtain ⟨-, -, -, -, -, -, -, -, e0, e1, -⟩ := index_facts t
  rw [V_main_arg4 m c]
  refine congrArg (m ((c : Thread nD τ).loc main_arg4)) (funext fun a => Fin.ext ?_)
  match a with
  | ⟨0, _⟩ => show win0_4.index t (0 : Fin 2) * 197 + 1 * s.val = s.val; omega
  | ⟨1, _⟩ => show win0_4.index t (1 : Fin 2) * 768 + 1 * h.val = h.val; omega

/-- The result: the patch embedding of the launched arrays. -/
def result (c : Dev nD) : Buf (Elt Ideal) ((c : Thread nD τ).loc main_v5) :=
  embed (patches (m ((c : Thread nD τ).loc main_arg0))) (m ((c : Thread nD τ).loc main_arg1)) (m ((c : Thread nD τ).loc main_arg2)) (m ((c : Thread nD τ).loc main_arg3)) (m ((c : Thread nD τ).loc main_arg4))

/-- What grid point `t` writes back is tile `t` of the result. -/
theorem flushed_eq (c : Dev nD) (t : Fin cfg0.N) :
    (dats m 0 c).flushed 5 t = ((cfg0.win 5).blk t).view.read (Elt Ideal) (result m c) := by
  rw [Cert.KernelIdeal.Value.flushed5_A]
  funext y
  obtain ⟨bb, s, h, rfl⟩ : ∃ (bb : Fin 8) (s : Fin 197) (h : Fin 768), y = ix3 bb s h := ⟨y 0, y 1, y 2, eq_ix3 y⟩
  have hN : cfg0.N = 16 := N_0
  have hn : 8 * t.val + bb.val < 128 := by have := t.isLt; have := bb.isLt; omega
  obtain ⟨-, -, -, -, -, -, -, -, -, -, e0, e1, e2⟩ := index_facts t
  have e : ((cfg0.win 5).blk t).view.emb (ix3 bb s h) = (ix3 (⟨8 * t.val + bb.val, hn⟩ : Fin 128) s h : S128x197x768.Idx) :=
    funext fun a => Fin.ext (by
      match a with
      | ⟨0, _⟩ => show win0_5.index t (0 : Fin 3) * 8 + 1 * bb.val = 8 * t.val + bb.val; omega
      | ⟨1, _⟩ => show win0_5.index t (1 : Fin 3) * 197 + 1 * s.val = s.val; omega
      | ⟨2, _⟩ => show win0_5.index t (2 : Fin 3) * 768 + 1 * h.val = h.val; omega)
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) (ix3 bb s h)
    = result m c (((cfg0.win 5).blk t).view.emb (ix3 bb s h))
  rw [e]
  refine (out_tile c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) bb s h).trans ?_
  show _ = token (patches (m ((c : Thread nD τ).loc main_arg0))) (m ((c : Thread nD τ).loc main_arg1)) (m ((c : Thread nD τ).loc main_arg2)) (m ((c : Thread nD τ).loc main_arg3)) (m ((c : Thread nD τ).loc main_arg4))
    (⟨8 * t.val + bb.val, hn⟩ : Fin 128) s h
  exact token_congr _ _ _ _ _ _ _ _ _ _ bb ⟨8 * t.val + bb.val, hn⟩ s h
    (fun p k => read_patches m c t bb p k ⟨8 * t.val + bb.val, hn⟩ rfl)
    (fun k => read_weights m c t k h) (read_bias m c t h) (read_cls m c t 0 h) (read_pos m c t s h)

/-- An index of the array is in tile `t` iff each coordinate is in the tile's range on its axis. -/
theorem mem_tile (t : Fin cfg0.N) (i : S128x197x768.Idx) :
    i ∈ ((cfg0.win 5).blk t).view.set ↔ ∀ a : Fin 3, win0_5.index t a * S8x197x768.size a ≤ (i a).val
      ∧ (i a).val < win0_5.index t a * S8x197x768.size a + S8x197x768.size a := by
  show i ∈ ((View.whole main_v5).slice (win0_5.rect t)).set ↔ _
  rw [View.set_slice_whole, Rect.mem_set_unit]
  exact Iff.rfl

/-- Every index of the array lies in a tile that is written back: image `n` in tile `n / 8`. -/
theorem covered (i : S128x197x768.Idx) :
    ∃ t : Fin cfg0.N, (cfg0.win 5).flush t = true ∧ i ∈ ((cfg0.win 5).blk t).view.set := by
  have hN : cfg0.N = 16 := N_0
  have h0 : (i 0).val < 128 := (i 0).isLt
  have h1 : (i 1).val < 197 := (i 1).isLt
  have h2 : (i 2).val < 768 := (i 2).isLt
  have ht : (i 0).val / 8 < cfg0.N := by omega
  refine ⟨⟨(i 0).val / 8, ht⟩, flush0_5 _, ?_⟩
  rw [mem_tile]
  obtain ⟨-, -, -, -, -, -, -, -, -, -, e0, e1, e2⟩ := index_facts ⟨(i 0).val / 8, ht⟩
  have e0' : win0_5.index ⟨(i 0).val / 8, ht⟩ (0 : Fin 3) = (i 0).val / 8 := e0
  intro a
  match a with
  | ⟨0, _⟩ =>
    show win0_5.index ⟨(i 0).val / 8, ht⟩ (0 : Fin 3) * 8 ≤ (i 0).val
      ∧ (i 0).val < win0_5.index ⟨(i 0).val / 8, ht⟩ (0 : Fin 3) * 8 + 8
    omega
  | ⟨1, _⟩ =>
    show win0_5.index ⟨(i 0).val / 8, ht⟩ (1 : Fin 3) * 197 ≤ (i 1).val
      ∧ (i 1).val < win0_5.index ⟨(i 0).val / 8, ht⟩ (1 : Fin 3) * 197 + 197
    omega
  | ⟨2, _⟩ =>
    show win0_5.index ⟨(i 0).val / 8, ht⟩ (2 : Fin 3) * 768 ≤ (i 2).val
      ∧ (i 2).val < win0_5.index ⟨(i 0).val / 8, ht⟩ (2 : Fin 3) * 768 + 768
    omega

/-- So the result array ends at the patch embedding. -/
theorem final (c : Dev nD) : (dats m 0 c).arrAt 5 cfg0.N = result m c :=
  (dats m 0 c).arrAt_eq_of_cover 5 (result m c) (fun t _ => flushed_eq m c t) covered

/-- The kernel's run, read: the result array at the patch embedding of the launched arrays, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.lean ====
/-
  Patch embedding for a vision transformer: a kernel tiled over the images against its untiled reference, on the
  extended reals.

  Both programs cut 128 images [3, 224, 224] into 196 patches of 768 numbers each (the same reshape, transpose and
  reshape). The reference contracts every patch with the rows of `W` [768, 768], adds the bias, puts the class
  token's row in front of the 196 projected rows and adds the positional table [197, 768] to all 197 rows. The
  kernel transposes `W` once, then for each of 16 tiles of 8 images multiplies the tile's 8·196 patches by the
  transposed weights, adds the bias, and writes two pieces of its output tile: row 0 (class token + position 0) and
  rows 1..196 (projected patches + positions 1..196).

  Entry `(n, s, h)` of either result is
      cls[0, h] + pos[0, h]                               for s = 0,
      (∑ₖ P[n, s-1, k] · W[h, k] + b[h]) + pos[s, h]      for s ≥ 1,
  with `P` the patches (Proof/Spec.lean). The two programs differ in layout only (tiling over the images, the
  flattening of a tile to one matrix, the weights held transposed, a rounding of the product's operands to bf16
  that is the identity on the extended reals, a zero accumulator), so the sums are over the same terms in the same
  index set and no law of arithmetic is needed; in particular the entries need not be finite, and the precondition
  is never opened.

  The reference's side is read one operation at a time in Proof/RefSpec.lean. The kernel's side: the body's two
  stored values at an index (Proof/Payload.lean), the output tile after the body (Proof/Block.lean), and the
  passage from tiles to the whole array (Proof/Whole.lean). The ideal pass rewrote nothing, so the kernel's
  idealization is its own text read on the extended reals.
-/
import proofs.«103310_j32762010534327_2_alg».proof.Defs
import proofs.«103310_j32762010534327_2_alg».proof.Proof.Gen.Kernel
import proofs.«103310_j32762010534327_2_alg».proof.Proof.Gen.Kernel.Skeleton
import proofs.«103310_j32762010534327_2_alg».proof.Proof.Gen.Kernel.Launch
import proofs.«103310_j32762010534327_2_alg».proof.Proof.Gen.Kernel.Points
import proofs.«103310_j32762010534327_2_alg».proof.Proof.Gen.Kernel.Frame
import proofs.«103310_j32762010534327_2_alg».proof.Proof.Gen.KernelIdeal
import proofs.«103310_j32762010534327_2_alg».proof.Proof.Gen.KernelIdeal.Skeleton
import proofs.«103310_j32762010534327_2_alg».proof.Proof.Gen.KernelIdeal.Launch
import proofs.«103310_j32762010534327_2_alg».proof.Proof.Gen.KernelIdeal.Points
import proofs.«103310_j32762010534327_2_alg».proof.Proof.Gen.KernelIdeal.Frame
import proofs.«103310_j32762010534327_2_alg».proof.Proof.Gen.ReferenceIdeal
import proofs.«103310_j32762010534327_2_alg».proof.Proof.Gen.Pre_finite_inputs
import proofs.«103310_j32762010534327_2_alg».proof.Proof.Gen.KernelIdeal.Value
import proofs.«103310_j32762010534327_2_alg».proof.Proof.Gen.ReferenceIdeal.Run
import proofs.«103310_j32762010534327_2_alg».proof.Proof.Gen.ReferenceIdeal.Read
import proofs.«103310_j32762010534327_2_alg».proof.Proof.RefSpec
import proofs.«103310_j32762010534327_2_alg».proof.Proof.Whole
import Idealize.ShloMosaic.Adequacy
import Idealize.ShloMosaic.Init

noncomputable section

namespace Cert.Proof

open Idealize.ShloMosaic Idealize.SL.Sem

/-- The kernel as printed runs to the end and leaves its five argument arrays as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is thirteen host operations in a row: it runs to the end, and none of them writes an argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the five arguments both programs end with the patch embedding of those arguments:
    the kernel's result array tile by tile (Proof/Whole.lean), the reference's operation by operation
    (Proof/RefSpec.lean); the patches both cut out of the images are the same three layout operations of the same
    array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
